-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S512x256 : Shape := ⟨2, ![512, 256]⟩
abbrev S512x1 : Shape := ⟨2, ![512, 1]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S2048x256 .f32) (main_arg1 : FVec F S512x256 .f32) (main_arg2 : FVec F S512x1 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S2048x256 : Shape := ⟨2, ![2048, 256]⟩
abbrev S512x256 : Shape := ⟨2, ![512, 256]⟩
abbrev S512x1 : Shape := ⟨2, ![512, 1]⟩
abbrev S256x512 : Shape := ⟨2, ![256, 512]⟩
abbrev S1x512 : Shape := ⟨2, ![1, 512]⟩
abbrev S2048x512 : Shape := ⟨2, ![2048, 512]⟩
abbrev S256x256 : Shape := ⟨2, ![256, 256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S512x1, .f32⟩
  | .hbm, ⟨3, _⟩ => ⟨S256x512, .f32⟩
  | .hbm, ⟨4, _⟩ => ⟨S1x512, .f32⟩
  | .hbm, ⟨5, _⟩ => ⟨S2048x512, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x256_S256x512_1_0 : S512x256.Transposes [1, 0] S256x512
  transposes_S512x1_S1x512_1_0 : S512x1.Transposes [1, 0] S1x512
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S256x256_o0_0_S256x1 : S256x256.Slices ![0, 0] S256x1
  broadcasts_S256x1_S256x512 : S256x1.Broadcasts S256x512
  broadcasts_S1x512_S256x512 : S1x512.Broadcasts S256x512
  slices_S256x512_o0_0_S1x512 : S256x512.Slices ![0, 0] S1x512
  slices_S256x256_o0_1_S256x1 : S256x256.Slices ![0, 1] S256x1
  slices_S256x512_o1_0_S1x512 : S256x512.Slices ![1, 0] S1x512
  slices_S256x256_o0_2_S256x1 : S256x256.Slices ![0, 2] S256x1
  slices_S256x512_o2_0_S1x512 : S256x512.Slices ![2, 0] S1x512
  slices_S256x256_o0_3_S256x1 : S256x256.Slices ![0, 3] S256x1
  slices_S256x512_o3_0_S1x512 : S256x512.Slices ![3, 0] S1x512
  slices_S256x256_o0_4_S256x1 : S256x256.Slices ![0, 4] S256x1
  slices_S256x512_o4_0_S1x512 : S256x512.Slices ![4, 0] S1x512
  slices_S256x256_o0_5_S256x1 : S256x256.Slices ![0, 5] S256x1
  slices_S256x512_o5_0_S1x512 : S256x512.Slices ![5, 0] S1x512
  slices_S256x256_o0_6_S256x1 : S256x256.Slices ![0, 6] S256x1
  slices_S256x512_o6_0_S1x512 : S256x512.Slices ![6, 0] S1x512
  slices_S256x256_o0_7_S256x1 : S256x256.Slices ![0, 7] S256x1
  slices_S256x512_o7_0_S1x512 : S256x512.Slices ![7, 0] S1x512
  slices_S256x256_o0_8_S256x1 : S256x256.Slices ![0, 8] S256x1
  slices_S256x512_o8_0_S1x512 : S256x512.Slices ![8, 0] S1x512
  slices_S256x256_o0_9_S256x1 : S256x256.Slices ![0, 9] S256x1
  slices_S256x512_o9_0_S1x512 : S256x512.Slices ![9, 0] S1x512
  slices_S256x256_o0_10_S256x1 : S256x256.Slices ![0, 10] S256x1
  slices_S256x512_o10_0_S1x512 : S256x512.Slices ![10, 0] S1x512
  slices_S256x256_o0_11_S256x1 : S256x256.Slices ![0, 11] S256x1
  slices_S256x512_o11_0_S1x512 : S256x512.Slices ![11, 0] S1x512
  slices_S256x256_o0_12_S256x1 : S256x256.Slices ![0, 12] S256x1
  slices_S256x512_o12_0_S1x512 : S256x512.Slices ![12, 0] S1x512
  slices_S256x256_o0_13_S256x1 : S256x256.Slices ![0, 13] S256x1
  slices_S256x512_o13_0_S1x512 : S256x512.Slices ![13, 0] S1x512
  slices_S256x256_o0_14_S256x1 : S256x256.Slices ![0, 14] S256x1
  slices_S256x512_o14_0_S1x512 : S256x512.Slices ![14, 0] S1x512
  slices_S256x256_o0_15_S256x1 : S256x256.Slices ![0, 15] S256x1
  slices_S256x512_o15_0_S1x512 : S256x512.Slices ![15, 0] S1x512
  slices_S256x256_o0_16_S256x1 : S256x256.Slices ![0, 16] S256x1
  slices_S256x512_o16_0_S1x512 : S256x512.Slices ![16, 0] S1x512
  slices_S256x256_o0_17_S256x1 : S256x256.Slices ![0, 17] S256x1
  slices_S256x512_o17_0_S1x512 : S256x512.Slices ![17, 0] S1x512
  slices_S256x256_o0_18_S256x1 : S256x256.Slices ![0, 18] S256x1
  slices_S256x512_o18_0_S1x512 : S256x512.Slices ![18, 0] S1x512
  slices_S256x256_o0_19_S256x1 : S256x256.Slices ![0, 19] S256x1
  slices_S256x512_o19_0_S1x512 : S256x512.Slices ![19, 0] S1x512
  slices_S256x256_o0_20_S256x1 : S256x256.Slices ![0, 20] S256x1
  slices_S256x512_o20_0_S1x512 : S256x512.Slices ![20, 0] S1x512
  slices_S256x256_o0_21_S256x1 : S256x256.Slices ![0, 21] S256x1
  slices_S256x512_o21_0_S1x512 : S256x512.Slices ![21, 0] S1x512
  slices_S256x256_o0_22_S256x1 : S256x256.Slices ![0, 22] S256x1
  slices_S256x512_o22_0_S1x512 : S256x512.Slices ![22, 0] S1x512
  slices_S256x256_o0_23_S256x1 : S256x256.Slices ![0, 23] S256x1
  slices_S256x512_o23_0_S1x512 : S256x512.Slices ![23, 0] S1x512
  slices_S256x256_o0_24_S256x1 : S256x256.Slices ![0, 24] S256x1
  slices_S256x512_o24_0_S1x512 : S256x512.Slices ![24, 0] S1x512
  slices_S256x256_o0_25_S256x1 : S256x256.Slices ![0, 25] S256x1
  slices_S256x512_o25_0_S1x512 : S256x512.Slices ![25, 0] S1x512
  slices_S256x256_o0_26_S256x1 : S256x256.Slices ![0, 26] S256x1
  slices_S256x512_o26_0_S1x512 : S256x512.Slices ![26, 0] S1x512
  slices_S256x256_o0_27_S256x1 : S256x256.Slices ![0, 27] S256x1
  slices_S256x512_o27_0_S1x512 : S256x512.Slices ![27, 0] S1x512
  slices_S256x256_o0_28_S256x1 : S256x256.Slices ![0, 28] S256x1
  slices_S256x512_o28_0_S1x512 : S256x512.Slices ![28, 0] S1x512
  slices_S256x256_o0_29_S256x1 : S256x256.Slices ![0, 29] S256x1
  slices_S256x512_o29_0_S1x512 : S256x512.Slices ![29, 0] S1x512
  slices_S256x256_o0_30_S256x1 : S256x256.Slices ![0, 30] S256x1
  slices_S256x512_o30_0_S1x512 : S256x512.Slices ![30, 0] S1x512
  slices_S256x256_o0_31_S256x1 : S256x256.Slices ![0, 31] S256x1
  slices_S256x512_o31_0_S1x512 : S256x512.Slices ![31, 0] S1x512
  slices_S256x256_o0_32_S256x1 : S256x256.Slices ![0, 32] S256x1
  slices_S256x512_o32_0_S1x512 : S256x512.Slices ![32, 0] S1x512
  slices_S256x256_o0_33_S256x1 : S256x256.Slices ![0, 33] S256x1
  slices_S256x512_o33_0_S1x512 : S256x512.Slices ![33, 0] S1x512
  slices_S256x256_o0_34_S256x1 : S256x256.Slices ![0, 34] S256x1
  slices_S256x512_o34_0_S1x512 : S256x512.Slices ![34, 0] S1x512
  slices_S256x256_o0_35_S256x1 : S256x256.Slices ![0, 35] S256x1
  slices_S256x512_o35_0_S1x512 : S256x512.Slices ![35, 0] S1x512
  slices_S256x256_o0_36_S256x1 : S256x256.Slices ![0, 36] S256x1
  slices_S256x512_o36_0_S1x512 : S256x512.Slices ![36, 0] S1x512
  slices_S256x256_o0_37_S256x1 : S256x256.Slices ![0, 37] S256x1
  slices_S256x512_o37_0_S1x512 : S256x512.Slices ![37, 0] S1x512
  slices_S256x256_o0_38_S256x1 : S256x256.Slices ![0, 38] S256x1
  slices_S256x512_o38_0_S1x512 : S256x512.Slices ![38, 0] S1x512
  slices_S256x256_o0_39_S256x1 : S256x256.Slices ![0, 39] S256x1
  slices_S256x512_o39_0_S1x512 : S256x512.Slices ![39, 0] S1x512
  slices_S256x256_o0_40_S256x1 : S256x256.Slices ![0, 40] S256x1
  slices_S256x512_o40_0_S1x512 : S256x512.Slices ![40, 0] S1x512
  slices_S256x256_o0_41_S256x1 : S256x256.Slices ![0, 41] S256x1
  slices_S256x512_o41_0_S1x512 : S256x512.Slices ![41, 0] S1x512
  slices_S256x256_o0_42_S256x1 : S256x256.Slices ![0, 42] S256x1
  slices_S256x512_o42_0_S1x512 : S256x512.Slices ![42, 0] S1x512
  slices_S256x256_o0_43_S256x1 : S256x256.Slices ![0, 43] S256x1
  slices_S256x512_o43_0_S1x512 : S256x512.Slices ![43, 0] S1x512
  slices_S256x256_o0_44_S256x1 : S256x256.Slices ![0, 44] S256x1
  slices_S256x512_o44_0_S1x512 : S256x512.Slices ![44, 0] S1x512
  slices_S256x256_o0_45_S256x1 : S256x256.Slices ![0, 45] S256x1
  slices_S256x512_o45_0_S1x512 : S256x512.Slices ![45, 0] S1x512
  slices_S256x256_o0_46_S256x1 : S256x256.Slices ![0, 46] S256x1
  slices_S256x512_o46_0_S1x512 : S256x512.Slices ![46, 0] S1x512
  slices_S256x256_o0_47_S256x1 : S256x256.Slices ![0, 47] S256x1
  slices_S256x512_o47_0_S1x512 : S256x512.Slices ![47, 0] S1x512
  slices_S256x256_o0_48_S256x1 : S256x256.Slices ![0, 48] S256x1
  slices_S256x512_o48_0_S1x512 : S256x512.Slices ![48, 0] S1x512
  slices_S256x256_o0_49_S256x1 : S256x256.Slices ![0, 49] S256x1
  slices_S256x512_o49_0_S1x512 : S256x512.Slices ![49, 0] S1x512
  slices_S256x256_o0_50_S256x1 : S256x256.Slices ![0, 50] S256x1
  slices_S256x512_o50_0_S1x512 : S256x512.Slices ![50, 0] S1x512
  slices_S256x256_o0_51_S256x1 : S256x256.Slices ![0, 51] S256x1
  slices_S256x512_o51_0_S1x512 : S256x512.Slices ![51, 0] S1x512
  slices_S256x256_o0_52_S256x1 : S256x256.Slices ![0, 52] S256x1
  slices_S256x512_o52_0_S1x512 : S256x512.Slices ![52, 0] S1x512
  slices_S256x256_o0_53_S256x1 : S256x256.Slices ![0, 53] S256x1
  slices_S256x512_o53_0_S1x512 : S256x512.Slices ![53, 0] S1x512
  slices_S256x256_o0_54_S256x1 : S256x256.Slices ![0, 54] S256x1
  slices_S256x512_o54_0_S1x512 : S256x512.Slices ![54, 0] S1x512
  slices_S256x256_o0_55_S256x1 : S256x256.Slices ![0, 55] S256x1
  slices_S256x512_o55_0_S1x512 : S256x512.Slices ![55, 0] S1x512
  slices_S256x256_o0_56_S256x1 : S256x256.Slices ![0, 56] S256x1
  slices_S256x512_o56_0_S1x512 : S256x512.Slices ![56, 0] S1x512
  slices_S256x256_o0_57_S256x1 : S256x256.Slices ![0, 57] S256x1
  slices_S256x512_o57_0_S1x512 : S256x512.Slices ![57, 0] S1x512
  slices_S256x256_o0_58_S256x1 : S256x256.Slices ![0, 58] S256x1
  slices_S256x512_o58_0_S1x512 : S256x512.Slices ![58, 0] S1x512
  slices_S256x256_o0_59_S256x1 : S256x256.Slices ![0, 59] S256x1
  slices_S256x512_o59_0_S1x512 : S256x512.Slices ![59, 0] S1x512
  slices_S256x256_o0_60_S256x1 : S256x256.Slices ![0, 60] S256x1
  slices_S256x512_o60_0_S1x512 : S256x512.Slices ![60, 0] S1x512
  slices_S256x256_o0_61_S256x1 : S256x256.Slices ![0, 61] S256x1
  slices_S256x512_o61_0_S1x512 : S256x512.Slices ![61, 0] S1x512
  slices_S256x256_o0_62_S256x1 : S256x256.Slices ![0, 62] S256x1
  slices_S256x512_o62_0_S1x512 : S256x512.Slices ![62, 0] S1x512
  slices_S256x256_o0_63_S256x1 : S256x256.Slices ![0, 63] S256x1
  slices_S256x512_o63_0_S1x512 : S256x512.Slices ![63, 0] S1x512
  slices_S256x256_o0_64_S256x1 : S256x256.Slices ![0, 64] S256x1
  slices_S256x512_o64_0_S1x512 : S256x512.Slices ![64, 0] S1x512
  slices_S256x256_o0_65_S256x1 : S256x256.Slices ![0, 65] S256x1
  slices_S256x512_o65_0_S1x512 : S256x512.Slices ![65, 0] S1x512
  slices_S256x256_o0_66_S256x1 : S256x256.Slices ![0, 66] S256x1
  slices_S256x512_o66_0_S1x512 : S256x512.Slices ![66, 0] S1x512
  slices_S256x256_o0_67_S256x1 : S256x256.Slices ![0, 67] S256x1
  slices_S256x512_o67_0_S1x512 : S256x512.Slices ![67, 0] S1x512
  slices_S256x256_o0_68_S256x1 : S256x256.Slices ![0, 68] S256x1
  slices_S256x512_o68_0_S1x512 : S256x512.Slices ![68, 0] S1x512
  slices_S256x256_o0_69_S256x1 : S256x256.Slices ![0, 69] S256x1
  slices_S256x512_o69_0_S1x512 : S256x512.Slices ![69, 0] S1x512
  slices_S256x256_o0_70_S256x1 : S256x256.Slices ![0, 70] S256x1
  slices_S256x512_o70_0_S1x512 : S256x512.Slices ![70, 0] S1x512
  slices_S256x256_o0_71_S256x1 : S256x256.Slices ![0, 71] S256x1
  slices_S256x512_o71_0_S1x512 : S256x512.Slices ![71, 0] S1x512
  slices_S256x256_o0_72_S256x1 : S256x256.Slices ![0, 72] S256x1
  slices_S256x512_o72_0_S1x512 : S256x512.Slices ![72, 0] S1x512
  slices_S256x256_o0_73_S256x1 : S256x256.Slices ![0, 73] S256x1
  slices_S256x512_o73_0_S1x512 : S256x512.Slices ![73, 0] S1x512
  slices_S256x256_o0_74_S256x1 : S256x256.Slices ![0, 74] S256x1
  slices_S256x512_o74_0_S1x512 : S256x512.Slices ![74, 0] S1x512
  slices_S256x256_o0_75_S256x1 : S256x256.Slices ![0, 75] S256x1
  slices_S256x512_o75_0_S1x512 : S256x512.Slices ![75, 0] S1x512
  slices_S256x256_o0_76_S256x1 : S256x256.Slices ![0, 76] S256x1
  slices_S256x512_o76_0_S1x512 : S256x512.Slices ![76, 0] S1x512
  slices_S256x256_o0_77_S256x1 : S256x256.Slices ![0, 77] S256x1
  slices_S256x512_o77_0_S1x512 : S256x512.Slices ![77, 0] S1x512
  slices_S256x256_o0_78_S256x1 : S256x256.Slices ![0, 78] S256x1
  slices_S256x512_o78_0_S1x512 : S256x512.Slices ![78, 0] S1x512
  slices_S256x256_o0_79_S256x1 : S256x256.Slices ![0, 79] S256x1
  slices_S256x512_o79_0_S1x512 : S256x512.Slices ![79, 0] S1x512
  slices_S256x256_o0_80_S256x1 : S256x256.Slices ![0, 80] S256x1
  slices_S256x512_o80_0_S1x512 : S256x512.Slices ![80, 0] S1x512
  slices_S256x256_o0_81_S256x1 : S256x256.Slices ![0, 81] S256x1
  slices_S256x512_o81_0_S1x512 : S256x512.Slices ![81, 0] S1x512
  slices_S256x256_o0_82_S256x1 : S256x256.Slices ![0, 82] S256x1
  slices_S256x512_o82_0_S1x512 : S256x512.Slices ![82, 0] S1x512
  slices_S256x256_o0_83_S256x1 : S256x256.Slices ![0, 83] S256x1
  slices_S256x512_o83_0_S1x512 : S256x512.Slices ![83, 0] S1x512
  slices_S256x256_o0_84_S256x1 : S256x256.Slices ![0, 84] S256x1
  slices_S256x512_o84_0_S1x512 : S256x512.Slices ![84, 0] S1x512
  slices_S256x256_o0_85_S256x1 : S256x256.Slices ![0, 85] S256x1
  slices_S256x512_o85_0_S1x512 : S256x512.Slices ![85, 0] S1x512
  slices_S256x256_o0_86_S256x1 : S256x256.Slices ![0, 86] S256x1
  slices_S256x512_o86_0_S1x512 : S256x512.Slices ![86, 0] S1x512
  slices_S256x256_o0_87_S256x1 : S256x256.Slices ![0, 87] S256x1
  slices_S256x512_o87_0_S1x512 : S256x512.Slices ![87, 0] S1x512
  slices_S256x256_o0_88_S256x1 : S256x256.Slices ![0, 88] S256x1
  slices_S256x512_o88_0_S1x512 : S256x512.Slices ![88, 0] S1x512
  slices_S256x256_o0_89_S256x1 : S256x256.Slices ![0, 89] S256x1
  slices_S256x512_o89_0_S1x512 : S256x512.Slices ![89, 0] S1x512
  slices_S256x256_o0_90_S256x1 : S256x256.Slices ![0, 90] S256x1
  slices_S256x512_o90_0_S1x512 : S256x512.Slices ![90, 0] S1x512
  slices_S256x256_o0_91_S256x1 : S256x256.Slices ![0, 91] S256x1
  slices_S256x512_o91_0_S1x512 : S256x512.Slices ![91, 0] S1x512
  slices_S256x256_o0_92_S256x1 : S256x256.Slices ![0, 92] S256x1
  slices_S256x512_o92_0_S1x512 : S256x512.Slices ![92, 0] S1x512
  slices_S256x256_o0_93_S256x1 : S256x256.Slices ![0, 93] S256x1
  slices_S256x512_o93_0_S1x512 : S256x512.Slices ![93, 0] S1x512
  slices_S256x256_o0_94_S256x1 : S256x256.Slices ![0, 94] S256x1
  slices_S256x512_o94_0_S1x512 : S256x512.Slices ![94, 0] S1x512
  slices_S256x256_o0_95_S256x1 : S256x256.Slices ![0, 95] S256x1
  slices_S256x512_o95_0_S1x512 : S256x512.Slices ![95, 0] S1x512
  slices_S256x256_o0_96_S256x1 : S256x256.Slices ![0, 96] S256x1
  slices_S256x512_o96_0_S1x512 : S256x512.Slices ![96, 0] S1x512
  slices_S256x256_o0_97_S256x1 : S256x256.Slices ![0, 97] S256x1
  slices_S256x512_o97_0_S1x512 : S256x512.Slices ![97, 0] S1x512
  slices_S256x256_o0_98_S256x1 : S256x256.Slices ![0, 98] S256x1
  slices_S256x512_o98_0_S1x512 : S256x512.Slices ![98, 0] S1x512
  slices_S256x256_o0_99_S256x1 : S256x256.Slices ![0, 99] S256x1
  slices_S256x512_o99_0_S1x512 : S256x512.Slices ![99, 0] S1x512
  slices_S256x256_o0_100_S256x1 : S256x256.Slices ![0, 100] S256x1
  slices_S256x512_o100_0_S1x512 : S256x512.Slices ![100, 0] S1x512
  slices_S256x256_o0_101_S256x1 : S256x256.Slices ![0, 101] S256x1
  slices_S256x512_o101_0_S1x512 : S256x512.Slices ![101, 0] S1x512
  slices_S256x256_o0_102_S256x1 : S256x256.Slices ![0, 102] S256x1
  slices_S256x512_o102_0_S1x512 : S256x512.Slices ![102, 0] S1x512
  slices_S256x256_o0_103_S256x1 : S256x256.Slices ![0, 103] S256x1
  slices_S256x512_o103_0_S1x512 : S256x512.Slices ![103, 0] S1x512
  slices_S256x256_o0_104_S256x1 : S256x256.Slices ![0, 104] S256x1
  slices_S256x512_o104_0_S1x512 : S256x512.Slices ![104, 0] S1x512
  slices_S256x256_o0_105_S256x1 : S256x256.Slices ![0, 105] S256x1
  slices_S256x512_o105_0_S1x512 : S256x512.Slices ![105, 0] S1x512
  slices_S256x256_o0_106_S256x1 : S256x256.Slices ![0, 106] S256x1
  slices_S256x512_o106_0_S1x512 : S256x512.Slices ![106, 0] S1x512
  slices_S256x256_o0_107_S256x1 : S256x256.Slices ![0, 107] S256x1
  slices_S256x512_o107_0_S1x512 : S256x512.Slices ![107, 0] S1x512
  slices_S256x256_o0_108_S256x1 : S256x256.Slices ![0, 108] S256x1
  slices_S256x512_o108_0_S1x512 : S256x512.Slices ![108, 0] S1x512
  slices_S256x256_o0_109_S256x1 : S256x256.Slices ![0, 109] S256x1
  slices_S256x512_o109_0_S1x512 : S256x512.Slices ![109, 0] S1x512
  slices_S256x256_o0_110_S256x1 : S256x256.Slices ![0, 110] S256x1
  slices_S256x512_o110_0_S1x512 : S256x512.Slices ![110, 0] S1x512
  slices_S256x256_o0_111_S256x1 : S256x256.Slices ![0, 111] S256x1
  slices_S256x512_o111_0_S1x512 : S256x512.Slices ![111, 0] S1x512
  slices_S256x256_o0_112_S256x1 : S256x256.Slices ![0, 112] S256x1
  slices_S256x512_o112_0_S1x512 : S256x512.Slices ![112, 0] S1x512
  slices_S256x256_o0_113_S256x1 : S256x256.Slices ![0, 113] S256x1
  slices_S256x512_o113_0_S1x512 : S256x512.Slices ![113, 0] S1x512
  slices_S256x256_o0_114_S256x1 : S256x256.Slices ![0, 114] S256x1
  slices_S256x512_o114_0_S1x512 : S256x512.Slices ![114, 0] S1x512
  slices_S256x256_o0_115_S256x1 : S256x256.Slices ![0, 115] S256x1
  slices_S256x512_o115_0_S1x512 : S256x512.Slices ![115, 0] S1x512
  slices_S256x256_o0_116_S256x1 : S256x256.Slices ![0, 116] S256x1
  slices_S256x512_o116_0_S1x512 : S256x512.Slices ![116, 0] S1x512
  slices_S256x256_o0_117_S256x1 : S256x256.Slices ![0, 117] S256x1
  slices_S256x512_o117_0_S1x512 : S256x512.Slices ![117, 0] S1x512
  slices_S256x256_o0_118_S256x1 : S256x256.Slices ![0, 118] S256x1
  slices_S256x512_o118_0_S1x512 : S256x512.Slices ![118, 0] S1x512
  slices_S256x256_o0_119_S256x1 : S256x256.Slices ![0, 119] S256x1
  slices_S256x512_o119_0_S1x512 : S256x512.Slices ![119, 0] S1x512
  slices_S256x256_o0_120_S256x1 : S256x256.Slices ![0, 120] S256x1
  slices_S256x512_o120_0_S1x512 : S256x512.Slices ![120, 0] S1x512
  slices_S256x256_o0_121_S256x1 : S256x256.Slices ![0, 121] S256x1
  slices_S256x512_o121_0_S1x512 : S256x512.Slices ![121, 0] S1x512
  slices_S256x256_o0_122_S256x1 : S256x256.Slices ![0, 122] S256x1
  slices_S256x512_o122_0_S1x512 : S256x512.Slices ![122, 0] S1x512
  slices_S256x256_o0_123_S256x1 : S256x256.Slices ![0, 123] S256x1
  slices_S256x512_o123_0_S1x512 : S256x512.Slices ![123, 0] S1x512
  slices_S256x256_o0_124_S256x1 : S256x256.Slices ![0, 124] S256x1
  slices_S256x512_o124_0_S1x512 : S256x512.Slices ![124, 0] S1x512
  slices_S256x256_o0_125_S256x1 : S256x256.Slices ![0, 125] S256x1
  slices_S256x512_o125_0_S1x512 : S256x512.Slices ![125, 0] S1x512
  slices_S256x256_o0_126_S256x1 : S256x256.Slices ![0, 126] S256x1
  slices_S256x512_o126_0_S1x512 : S256x512.Slices ![126, 0] S1x512
  slices_S256x256_o0_127_S256x1 : S256x256.Slices ![0, 127] S256x1
  slices_S256x512_o127_0_S1x512 : S256x512.Slices ![127, 0] S1x512
  slices_S256x256_o0_128_S256x1 : S256x256.Slices ![0, 128] S256x1
  slices_S256x512_o128_0_S1x512 : S256x512.Slices ![128, 0] S1x512
  slices_S256x256_o0_129_S256x1 : S256x256.Slices ![0, 129] S256x1
  slices_S256x512_o129_0_S1x512 : S256x512.Slices ![129, 0] S1x512
  slices_S256x256_o0_130_S256x1 : S256x256.Slices ![0, 130] S256x1
  slices_S256x512_o130_0_S1x512 : S256x512.Slices ![130, 0] S1x512
  slices_S256x256_o0_131_S256x1 : S256x256.Slices ![0, 131] S256x1
  slices_S256x512_o131_0_S1x512 : S256x512.Slices ![131, 0] S1x512
  slices_S256x256_o0_132_S256x1 : S256x256.Slices ![0, 132] S256x1
  slices_S256x512_o132_0_S1x512 : S256x512.Slices ![132, 0] S1x512
  slices_S256x256_o0_133_S256x1 : S256x256.Slices ![0, 133] S256x1
  slices_S256x512_o133_0_S1x512 : S256x512.Slices ![133, 0] S1x512
  slices_S256x256_o0_134_S256x1 : S256x256.Slices ![0, 134] S256x1
  slices_S256x512_o134_0_S1x512 : S256x512.Slices ![134, 0] S1x512
  slices_S256x256_o0_135_S256x1 : S256x256.Slices ![0, 135] S256x1
  slices_S256x512_o135_0_S1x512 : S256x512.Slices ![135, 0] S1x512
  slices_S256x256_o0_136_S256x1 : S256x256.Slices ![0, 136] S256x1
  slices_S256x512_o136_0_S1x512 : S256x512.Slices ![136, 0] S1x512
  slices_S256x256_o0_137_S256x1 : S256x256.Slices ![0, 137] S256x1
  slices_S256x512_o137_0_S1x512 : S256x512.Slices ![137, 0] S1x512
  slices_S256x256_o0_138_S256x1 : S256x256.Slices ![0, 138] S256x1
  slices_S256x512_o138_0_S1x512 : S256x512.Slices ![138, 0] S1x512
  slices_S256x256_o0_139_S256x1 : S256x256.Slices ![0, 139] S256x1
  slices_S256x512_o139_0_S1x512 : S256x512.Slices ![139, 0] S1x512
  slices_S256x256_o0_140_S256x1 : S256x256.Slices ![0, 140] S256x1
  slices_S256x512_o140_0_S1x512 : S256x512.Slices ![140, 0] S1x512
  slices_S256x256_o0_141_S256x1 : S256x256.Slices ![0, 141] S256x1
  slices_S256x512_o141_0_S1x512 : S256x512.Slices ![141, 0] S1x512
  slices_S256x256_o0_142_S256x1 : S256x256.Slices ![0, 142] S256x1
  slices_S256x512_o142_0_S1x512 : S256x512.Slices ![142, 0] S1x512
  slices_S256x256_o0_143_S256x1 : S256x256.Slices ![0, 143] S256x1
  slices_S256x512_o143_0_S1x512 : S256x512.Slices ![143, 0] S1x512
  slices_S256x256_o0_144_S256x1 : S256x256.Slices ![0, 144] S256x1
  slices_S256x512_o144_0_S1x512 : S256x512.Slices ![144, 0] S1x512
  slices_S256x256_o0_145_S256x1 : S256x256.Slices ![0, 145] S256x1
  slices_S256x512_o145_0_S1x512 : S256x512.Slices ![145, 0] S1x512
  slices_S256x256_o0_146_S256x1 : S256x256.Slices ![0, 146] S256x1
  slices_S256x512_o146_0_S1x512 : S256x512.Slices ![146, 0] S1x512
  slices_S256x256_o0_147_S256x1 : S256x256.Slices ![0, 147] S256x1
  slices_S256x512_o147_0_S1x512 : S256x512.Slices ![147, 0] S1x512
  slices_S256x256_o0_148_S256x1 : S256x256.Slices ![0, 148] S256x1
  slices_S256x512_o148_0_S1x512 : S256x512.Slices ![148, 0] S1x512
  slices_S256x256_o0_149_S256x1 : S256x256.Slices ![0, 149] S256x1
  slices_S256x512_o149_0_S1x512 : S256x512.Slices ![149, 0] S1x512
  slices_S256x256_o0_150_S256x1 : S256x256.Slices ![0, 150] S256x1
  slices_S256x512_o150_0_S1x512 : S256x512.Slices ![150, 0] S1x512
  slices_S256x256_o0_151_S256x1 : S256x256.Slices ![0, 151] S256x1
  slices_S256x512_o151_0_S1x512 : S256x512.Slices ![151, 0] S1x512
  slices_S256x256_o0_152_S256x1 : S256x256.Slices ![0, 152] S256x1
  slices_S256x512_o152_0_S1x512 : S256x512.Slices ![152, 0] S1x512
  slices_S256x256_o0_153_S256x1 : S256x256.Slices ![0, 153] S256x1
  slices_S256x512_o153_0_S1x512 : S256x512.Slices ![153, 0] S1x512
  slices_S256x256_o0_154_S256x1 : S256x256.Slices ![0, 154] S256x1
  slices_S256x512_o154_0_S1x512 : S256x512.Slices ![154, 0] S1x512
  slices_S256x256_o0_155_S256x1 : S256x256.Slices ![0, 155] S256x1
  slices_S256x512_o155_0_S1x512 : S256x512.Slices ![155, 0] S1x512
  slices_S256x256_o0_156_S256x1 : S256x256.Slices ![0, 156] S256x1
  slices_S256x512_o156_0_S1x512 : S256x512.Slices ![156, 0] S1x512
  slices_S256x256_o0_157_S256x1 : S256x256.Slices ![0, 157] S256x1
  slices_S256x512_o157_0_S1x512 : S256x512.Slices ![157, 0] S1x512
  slices_S256x256_o0_158_S256x1 : S256x256.Slices ![0, 158] S256x1
  slices_S256x512_o158_0_S1x512 : S256x512.Slices ![158, 0] S1x512
  slices_S256x256_o0_159_S256x1 : S256x256.Slices ![0, 159] S256x1
  slices_S256x512_o159_0_S1x512 : S256x512.Slices ![159, 0] S1x512
  slices_S256x256_o0_160_S256x1 : S256x256.Slices ![0, 160] S256x1
  slices_S256x512_o160_0_S1x512 : S256x512.Slices ![160, 0] S1x512
  slices_S256x256_o0_161_S256x1 : S256x256.Slices ![0, 161] S256x1
  slices_S256x512_o161_0_S1x512 : S256x512.Slices ![161, 0] S1x512
  slices_S256x256_o0_162_S256x1 : S256x256.Slices ![0, 162] S256x1
  slices_S256x512_o162_0_S1x512 : S256x512.Slices ![162, 0] S1x512
  slices_S256x256_o0_163_S256x1 : S256x256.Slices ![0, 163] S256x1
  slices_S256x512_o163_0_S1x512 : S256x512.Slices ![163, 0] S1x512
  slices_S256x256_o0_164_S256x1 : S256x256.Slices ![0, 164] S256x1
  slices_S256x512_o164_0_S1x512 : S256x512.Slices ![164, 0] S1x512
  slices_S256x256_o0_165_S256x1 : S256x256.Slices ![0, 165] S256x1
  slices_S256x512_o165_0_S1x512 : S256x512.Slices ![165, 0] S1x512
  slices_S256x256_o0_166_S256x1 : S256x256.Slices ![0, 166] S256x1
  slices_S256x512_o166_0_S1x512 : S256x512.Slices ![166, 0] S1x512
  slices_S256x256_o0_167_S256x1 : S256x256.Slices ![0, 167] S256x1
  slices_S256x512_o167_0_S1x512 : S256x512.Slices ![167, 0] S1x512
  slices_S256x256_o0_168_S256x1 : S256x256.Slices ![0, 168] S256x1
  slices_S256x512_o168_0_S1x512 : S256x512.Slices ![168, 0] S1x512
  slices_S256x256_o0_169_S256x1 : S256x256.Slices ![0, 169] S256x1
  slices_S256x512_o169_0_S1x512 : S256x512.Slices ![169, 0] S1x512
  slices_S256x256_o0_170_S256x1 : S256x256.Slices ![0, 170] S256x1
  slices_S256x512_o170_0_S1x512 : S256x512.Slices ![170, 0] S1x512
  slices_S256x256_o0_171_S256x1 : S256x256.Slices ![0, 171] S256x1
  slices_S256x512_o171_0_S1x512 : S256x512.Slices ![171, 0] S1x512
  slices_S256x256_o0_172_S256x1 : S256x256.Slices ![0, 172] S256x1
  slices_S256x512_o172_0_S1x512 : S256x512.Slices ![172, 0] S1x512
  slices_S256x256_o0_173_S256x1 : S256x256.Slices ![0, 173] S256x1
  slices_S256x512_o173_0_S1x512 : S256x512.Slices ![173, 0] S1x512
  slices_S256x256_o0_174_S256x1 : S256x256.Slices ![0, 174] S256x1
  slices_S256x512_o174_0_S1x512 : S256x512.Slices ![174, 0] S1x512
  slices_S256x256_o0_175_S256x1 : S256x256.Slices ![0, 175] S256x1
  slices_S256x512_o175_0_S1x512 : S256x512.Slices ![175, 0] S1x512
  slices_S256x256_o0_176_S256x1 : S256x256.Slices ![0, 176] S256x1
  slices_S256x512_o176_0_S1x512 : S256x512.Slices ![176, 0] S1x512
  slices_S256x256_o0_177_S256x1 : S256x256.Slices ![0, 177] S256x1
  slices_S256x512_o177_0_S1x512 : S256x512.Slices ![177, 0] S1x512
  slices_S256x256_o0_178_S256x1 : S256x256.Slices ![0, 178] S256x1
  slices_S256x512_o178_0_S1x512 : S256x512.Slices ![178, 0] S1x512
  slices_S256x256_o0_179_S256x1 : S256x256.Slices ![0, 179] S256x1
  slices_S256x512_o179_0_S1x512 : S256x512.Slices ![179, 0] S1x512
  slices_S256x256_o0_180_S256x1 : S256x256.Slices ![0, 180] S256x1
  slices_S256x512_o180_0_S1x512 : S256x512.Slices ![180, 0] S1x512
  slices_S256x256_o0_181_S256x1 : S256x256.Slices ![0, 181] S256x1
  slices_S256x512_o181_0_S1x512 : S256x512.Slices ![181, 0] S1x512
  slices_S256x256_o0_182_S256x1 : S256x256.Slices ![0, 182] S256x1
  slices_S256x512_o182_0_S1x512 : S256x512.Slices ![182, 0] S1x512
  slices_S256x256_o0_183_S256x1 : S256x256.Slices ![0, 183] S256x1
  slices_S256x512_o183_0_S1x512 : S256x512.Slices ![183, 0] S1x512
  slices_S256x256_o0_184_S256x1 : S256x256.Slices ![0, 184] S256x1
  slices_S256x512_o184_0_S1x512 : S256x512.Slices ![184, 0] S1x512
  slices_S256x256_o0_185_S256x1 : S256x256.Slices ![0, 185] S256x1
  slices_S256x512_o185_0_S1x512 : S256x512.Slices ![185, 0] S1x512
  slices_S256x256_o0_186_S256x1 : S256x256.Slices ![0, 186] S256x1
  slices_S256x512_o186_0_S1x512 : S256x512.Slices ![186, 0] S1x512
  slices_S256x256_o0_187_S256x1 : S256x256.Slices ![0, 187] S256x1
  slices_S256x512_o187_0_S1x512 : S256x512.Slices ![187, 0] S1x512
  slices_S256x256_o0_188_S256x1 : S256x256.Slices ![0, 188] S256x1
  slices_S256x512_o188_0_S1x512 : S256x512.Slices ![188, 0] S1x512
  slices_S256x256_o0_189_S256x1 : S256x256.Slices ![0, 189] S256x1
  slices_S256x512_o189_0_S1x512 : S256x512.Slices ![189, 0] S1x512
  slices_S256x256_o0_190_S256x1 : S256x256.Slices ![0, 190] S256x1
  slices_S256x512_o190_0_S1x512 : S256x512.Slices ![190, 0] S1x512
  slices_S256x256_o0_191_S256x1 : S256x256.Slices ![0, 191] S256x1
  slices_S256x512_o191_0_S1x512 : S256x512.Slices ![191, 0] S1x512
  slices_S256x256_o0_192_S256x1 : S256x256.Slices ![0, 192] S256x1
  slices_S256x512_o192_0_S1x512 : S256x512.Slices ![192, 0] S1x512
  slices_S256x256_o0_193_S256x1 : S256x256.Slices ![0, 193] S256x1
  slices_S256x512_o193_0_S1x512 : S256x512.Slices ![193, 0] S1x512
  slices_S256x256_o0_194_S256x1 : S256x256.Slices ![0, 194] S256x1
  slices_S256x512_o194_0_S1x512 : S256x512.Slices ![194, 0] S1x512
  slices_S256x256_o0_195_S256x1 : S256x256.Slices ![0, 195] S256x1
  slices_S256x512_o195_0_S1x512 : S256x512.Slices ![195, 0] S1x512
  slices_S256x256_o0_196_S256x1 : S256x256.Slices ![0, 196] S256x1
  slices_S256x512_o196_0_S1x512 : S256x512.Slices ![196, 0] S1x512
  slices_S256x256_o0_197_S256x1 : S256x256.Slices ![0, 197] S256x1
  slices_S256x512_o197_0_S1x512 : S256x512.Slices ![197, 0] S1x512
  slices_S256x256_o0_198_S256x1 : S256x256.Slices ![0, 198] S256x1
  slices_S256x512_o198_0_S1x512 : S256x512.Slices ![198, 0] S1x512
  slices_S256x256_o0_199_S256x1 : S256x256.Slices ![0, 199] S256x1
  slices_S256x512_o199_0_S1x512 : S256x512.Slices ![199, 0] S1x512
  slices_S256x256_o0_200_S256x1 : S256x256.Slices ![0, 200] S256x1
  slices_S256x512_o200_0_S1x512 : S256x512.Slices ![200, 0] S1x512
  slices_S256x256_o0_201_S256x1 : S256x256.Slices ![0, 201] S256x1
  slices_S256x512_o201_0_S1x512 : S256x512.Slices ![201, 0] S1x512
  slices_S256x256_o0_202_S256x1 : S256x256.Slices ![0, 202] S256x1
  slices_S256x512_o202_0_S1x512 : S256x512.Slices ![202, 0] S1x512
  slices_S256x256_o0_203_S256x1 : S256x256.Slices ![0, 203] S256x1
  slices_S256x512_o203_0_S1x512 : S256x512.Slices ![203, 0] S1x512
  slices_S256x256_o0_204_S256x1 : S256x256.Slices ![0, 204] S256x1
  slices_S256x512_o204_0_S1x512 : S256x512.Slices ![204, 0] S1x512
  slices_S256x256_o0_205_S256x1 : S256x256.Slices ![0, 205] S256x1
  slices_S256x512_o205_0_S1x512 : S256x512.Slices ![205, 0] S1x512
  slices_S256x256_o0_206_S256x1 : S256x256.Slices ![0, 206] S256x1
  slices_S256x512_o206_0_S1x512 : S256x512.Slices ![206, 0] S1x512
  slices_S256x256_o0_207_S256x1 : S256x256.Slices ![0, 207] S256x1
  slices_S256x512_o207_0_S1x512 : S256x512.Slices ![207, 0] S1x512
  slices_S256x256_o0_208_S256x1 : S256x256.Slices ![0, 208] S256x1
  slices_S256x512_o208_0_S1x512 : S256x512.Slices ![208, 0] S1x512
  slices_S256x256_o0_209_S256x1 : S256x256.Slices ![0, 209] S256x1
  slices_S256x512_o209_0_S1x512 : S256x512.Slices ![209, 0] S1x512
  slices_S256x256_o0_210_S256x1 : S256x256.Slices ![0, 210] S256x1
  slices_S256x512_o210_0_S1x512 : S256x512.Slices ![210, 0] S1x512
  slices_S256x256_o0_211_S256x1 : S256x256.Slices ![0, 211] S256x1
  slices_S256x512_o211_0_S1x512 : S256x512.Slices ![211, 0] S1x512
  slices_S256x256_o0_212_S256x1 : S256x256.Slices ![0, 212] S256x1
  slices_S256x512_o212_0_S1x512 : S256x512.Slices ![212, 0] S1x512
  slices_S256x256_o0_213_S256x1 : S256x256.Slices ![0, 213] S256x1
  slices_S256x512_o213_0_S1x512 : S256x512.Slices ![213, 0] S1x512
  slices_S256x256_o0_214_S256x1 : S256x256.Slices ![0, 214] S256x1
  slices_S256x512_o214_0_S1x512 : S256x512.Slices ![214, 0] S1x512
  slices_S256x256_o0_215_S256x1 : S256x256.Slices ![0, 215] S256x1
  slices_S256x512_o215_0_S1x512 : S256x512.Slices ![215, 0] S1x512
  slices_S256x256_o0_216_S256x1 : S256x256.Slices ![0, 216] S256x1
  slices_S256x512_o216_0_S1x512 : S256x512.Slices ![216, 0] S1x512
  slices_S256x256_o0_217_S256x1 : S256x256.Slices ![0, 217] S256x1
  slices_S256x512_o217_0_S1x512 : S256x512.Slices ![217, 0] S1x512
  slices_S256x256_o0_218_S256x1 : S256x256.Slices ![0, 218] S256x1
  slices_S256x512_o218_0_S1x512 : S256x512.Slices ![218, 0] S1x512
  slices_S256x256_o0_219_S256x1 : S256x256.Slices ![0, 219] S256x1
  slices_S256x512_o219_0_S1x512 : S256x512.Slices ![219, 0] S1x512
  slices_S256x256_o0_220_S256x1 : S256x256.Slices ![0, 220] S256x1
  slices_S256x512_o220_0_S1x512 : S256x512.Slices ![220, 0] S1x512
  slices_S256x256_o0_221_S256x1 : S256x256.Slices ![0, 221] S256x1
  slices_S256x512_o221_0_S1x512 : S256x512.Slices ![221, 0] S1x512
  slices_S256x256_o0_222_S256x1 : S256x256.Slices ![0, 222] S256x1
  slices_S256x512_o222_0_S1x512 : S256x512.Slices ![222, 0] S1x512
  slices_S256x256_o0_223_S256x1 : S256x256.Slices ![0, 223] S256x1
  slices_S256x512_o223_0_S1x512 : S256x512.Slices ![223, 0] S1x512
  slices_S256x256_o0_224_S256x1 : S256x256.Slices ![0, 224] S256x1
  slices_S256x512_o224_0_S1x512 : S256x512.Slices ![224, 0] S1x512
  slices_S256x256_o0_225_S256x1 : S256x256.Slices ![0, 225] S256x1
  slices_S256x512_o225_0_S1x512 : S256x512.Slices ![225, 0] S1x512
  slices_S256x256_o0_226_S256x1 : S256x256.Slices ![0, 226] S256x1
  slices_S256x512_o226_0_S1x512 : S256x512.Slices ![226, 0] S1x512
  slices_S256x256_o0_227_S256x1 : S256x256.Slices ![0, 227] S256x1
  slices_S256x512_o227_0_S1x512 : S256x512.Slices ![227, 0] S1x512
  slices_S256x256_o0_228_S256x1 : S256x256.Slices ![0, 228] S256x1
  slices_S256x512_o228_0_S1x512 : S256x512.Slices ![228, 0] S1x512
  slices_S256x256_o0_229_S256x1 : S256x256.Slices ![0, 229] S256x1
  slices_S256x512_o229_0_S1x512 : S256x512.Slices ![229, 0] S1x512
  slices_S256x256_o0_230_S256x1 : S256x256.Slices ![0, 230] S256x1
  slices_S256x512_o230_0_S1x512 : S256x512.Slices ![230, 0] S1x512
  slices_S256x256_o0_231_S256x1 : S256x256.Slices ![0, 231] S256x1
  slices_S256x512_o231_0_S1x512 : S256x512.Slices ![231, 0] S1x512
  slices_S256x256_o0_232_S256x1 : S256x256.Slices ![0, 232] S256x1
  slices_S256x512_o232_0_S1x512 : S256x512.Slices ![232, 0] S1x512
  slices_S256x256_o0_233_S256x1 : S256x256.Slices ![0, 233] S256x1
  slices_S256x512_o233_0_S1x512 : S256x512.Slices ![233, 0] S1x512
  slices_S256x256_o0_234_S256x1 : S256x256.Slices ![0, 234] S256x1
  slices_S256x512_o234_0_S1x512 : S256x512.Slices ![234, 0] S1x512
  slices_S256x256_o0_235_S256x1 : S256x256.Slices ![0, 235] S256x1
  slices_S256x512_o235_0_S1x512 : S256x512.Slices ![235, 0] S1x512
  slices_S256x256_o0_236_S256x1 : S256x256.Slices ![0, 236] S256x1
  slices_S256x512_o236_0_S1x512 : S256x512.Slices ![236, 0] S1x512
  slices_S256x256_o0_237_S256x1 : S256x256.Slices ![0, 237] S256x1
  slices_S256x512_o237_0_S1x512 : S256x512.Slices ![237, 0] S1x512
  slices_S256x256_o0_238_S256x1 : S256x256.Slices ![0, 238] S256x1
  slices_S256x512_o238_0_S1x512 : S256x512.Slices ![238, 0] S1x512
  slices_S256x256_o0_239_S256x1 : S256x256.Slices ![0, 239] S256x1
  slices_S256x512_o239_0_S1x512 : S256x512.Slices ![239, 0] S1x512
  slices_S256x256_o0_240_S256x1 : S256x256.Slices ![0, 240] S256x1
  slices_S256x512_o240_0_S1x512 : S256x512.Slices ![240, 0] S1x512
  slices_S256x256_o0_241_S256x1 : S256x256.Slices ![0, 241] S256x1
  slices_S256x512_o241_0_S1x512 : S256x512.Slices ![241, 0] S1x512
  slices_S256x256_o0_242_S256x1 : S256x256.Slices ![0, 242] S256x1
  slices_S256x512_o242_0_S1x512 : S256x512.Slices ![242, 0] S1x512
  slices_S256x256_o0_243_S256x1 : S256x256.Slices ![0, 243] S256x1
  slices_S256x512_o243_0_S1x512 : S256x512.Slices ![243, 0] S1x512
  slices_S256x256_o0_244_S256x1 : S256x256.Slices ![0, 244] S256x1
  slices_S256x512_o244_0_S1x512 : S256x512.Slices ![244, 0] S1x512
  slices_S256x256_o0_245_S256x1 : S256x256.Slices ![0, 245] S256x1
  slices_S256x512_o245_0_S1x512 : S256x512.Slices ![245, 0] S1x512
  slices_S256x256_o0_246_S256x1 : S256x256.Slices ![0, 246] S256x1
  slices_S256x512_o246_0_S1x512 : S256x512.Slices ![246, 0] S1x512
  slices_S256x256_o0_247_S256x1 : S256x256.Slices ![0, 247] S256x1
  slices_S256x512_o247_0_S1x512 : S256x512.Slices ![247, 0] S1x512
  slices_S256x256_o0_248_S256x1 : S256x256.Slices ![0, 248] S256x1
  slices_S256x512_o248_0_S1x512 : S256x512.Slices ![248, 0] S1x512
  slices_S256x256_o0_249_S256x1 : S256x256.Slices ![0, 249] S256x1
  slices_S256x512_o249_0_S1x512 : S256x512.Slices ![249, 0] S1x512
  slices_S256x256_o0_250_S256x1 : S256x256.Slices ![0, 250] S256x1
  slices_S256x512_o250_0_S1x512 : S256x512.Slices ![250, 0] S1x512
  slices_S256x256_o0_251_S256x1 : S256x256.Slices ![0, 251] S256x1
  slices_S256x512_o251_0_S1x512 : S256x512.Slices ![251, 0] S1x512
  slices_S256x256_o0_252_S256x1 : S256x256.Slices ![0, 252] S256x1
  slices_S256x512_o252_0_S1x512 : S256x512.Slices ![252, 0] S1x512
  slices_S256x256_o0_253_S256x1 : S256x256.Slices ![0, 253] S256x1
  slices_S256x512_o253_0_S1x512 : S256x512.Slices ![253, 0] S1x512
  slices_S256x256_o0_254_S256x1 : S256x256.Slices ![0, 254] S256x1
  slices_S256x512_o254_0_S1x512 : S256x512.Slices ![254, 0] S1x512
  slices_S256x256_o0_255_S256x1 : S256x256.Slices ![0, 255] S256x1
  slices_S256x512_o255_0_S1x512 : S256x512.Slices ![255, 0] S1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x512.size a
  hwx0_3 : ∀ i : grid0.Coords, EltTy.bits .f32 = 32 ∨ (Rect.block (s := S2048x512) S256x512.size (cc0_transform_3 i) (hinb0_3 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x256 : Shape := ⟨2, ![2048, 256]⟩
abbrev S512x256 : Shape := ⟨2, ![512, 256]⟩
abbrev S512x1 : Shape := ⟨2, ![512, 1]⟩
abbrev S1x512x256 : Shape := ⟨3, ![1, 512, 256]⟩
abbrev S2048x1x256 : Shape := ⟨3, ![2048, 1, 256]⟩
abbrev S1x512x1 : Shape := ⟨3, ![1, 512, 1]⟩
abbrev S2048x512x256 : Shape := ⟨3, ![2048, 512, 256]⟩
abbrev S_ : Shape := ⟨0, ![]⟩
abbrev S2048x512 : Shape := ⟨2, ![2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S512x256, .f32⟩
  | .hbm, ⟨2, _⟩ => ⟨S512x1, .f32⟩
  | .hbm, ⟨3, _⟩ => ⟨S1x512x256, .f32⟩
  | .hbm, ⟨4, _⟩ => ⟨S2048x1x256, .f32⟩
  | .hbm, ⟨5, _⟩ => ⟨S1x512x1, .f32⟩
  | .hbm, ⟨6, _⟩ => ⟨S2048x512x256, .f32⟩
  | .hbm, ⟨7, _⟩ => ⟨S2048x512x256, .f32⟩
  | .hbm, ⟨8, _⟩ => ⟨S2048x512x256, .f32⟩
  | .hbm, ⟨9, _⟩ => ⟨S2048x512x256, .f32⟩
  | .hbm, ⟨10, _⟩ => ⟨S2048x512x256, .f32⟩
  | .hbm, ⟨11, _⟩ => ⟨S_, .f32⟩
  | .hbm, ⟨12, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S512x256_S1x512x256_1_2 : S512x256.BroadcastsInDim S1x512x256 (![1, 2] : Fin 2 → Fin S1x512x256.rank)
  bcast_S2048x256_S2048x1x256_0_2 : S2048x256.BroadcastsInDim S2048x1x256 (![0, 2] : Fin 2 → Fin S2048x1x256.rank)
  bcast_S512x1_S1x512x1_1_2 : S512x1.BroadcastsInDim S1x512x1 (![1, 2] : Fin 2 → Fin S1x512x1.rank)
  bcast_S2048x1x256_S2048x512x256_0_1_2 : S2048x1x256.BroadcastsInDim S2048x512x256 (![0, 1, 2] : Fin 3 → Fin S2048x512x256.rank)
  bcast_S1x512x1_S2048x512x256_0_1_2 : S1x512x1.BroadcastsInDim S2048x512x256 (![0, 1, 2] : Fin 3 → Fin S2048x512x256.rank)
  bcast_S1x512x256_S2048x512x256_0_1_2 : S1x512x256.BroadcastsInDim S2048x512x256 (![0, 1, 2] : Fin 3 → Fin S2048x512x256.rank)
  reducesTo_S2048x512x256_S2048x512_d2 : S2048x512x256.ReducesTo [2] S2048x512
  h_S_ : 0 < S_.numel

variable [Facts₀]

class Facts : Prop extends Facts₀ where

variable [Facts]
-- ==== Proof.LibRunningFold.lean ====
/-
  A running fold taken in order against the fold over the index set.

  `chain f z t n` starts from `z` and folds in the terms `t 0, t 1, …, t (n - 1)` one after the other, each new
  term on the right: `f (… (f (f z (t 0)) (t 1)) …) (t (n - 1))`. For a commutative and associative `f` the order
  and the grouping do not matter, so this is the fold of `f` from `z` over the finite set `Fin n` — the form in
  which a reduction over one axis of an array is stated. Nothing here depends on what `f` is: it is used for the
  minimum of extended reals, where a loop that keeps a running minimum meets a reduce-min over the same terms.
-/
import Mathlib.Data.Finset.Fold
import Mathlib.Data.Fintype.Basic
import Mathlib.Data.Fin.Basic
import Mathlib.Data.Fintype.Fin

namespace Cert.LibRunningFold

variable {α : Type*}

/-- The running fold: `z`, then each of the first `n` terms folded in on the right, in order. -/
def chain (f : α → α → α) (z : α) (t : ℕ → α) : ℕ → α
  | 0 => z
  | n + 1 => f (chain f z t n) (t n)

@[simp] theorem chain_zero (f : α → α → α) (z : α) (t : ℕ → α) : chain f z t 0 = z := rfl

/-- One more step of the running fold takes in the next term. -/
theorem chain_succ (f : α → α → α) (z : α) (t : ℕ → α) (n : ℕ) :
    chain f z t (n + 1) = f (chain f z t n) (t n) := rfl

/-- The running fold only looks at the terms below `n`. -/
theorem chain_congr (f : α → α → α) (z : α) (t t' : ℕ → α) (n : ℕ) (h : ∀ k, k < n → t k = t' k) :
    chain f z t n = chain f z t' n := by
  induction n with
  | zero => rfl
  | succ n ih =>
    rw [chain_succ, chain_succ, ih (fun k hk => h k (Nat.lt_succ_of_lt hk)), h n (Nat.lt_succ_self n)]

/-- For a commutative and associative operation the running fold over the first `n` terms is the fold over `Fin n`:
    the last term is split off the index set (`Fin (n + 1)` is `Fin n` and one more point) and commuted to the right. -/
theorem chain_eq_fold (f : α → α → α) [Std.Commutative f] [Std.Associative f] (z : α) (t : ℕ → α) (n : ℕ) :
    chain f z t n = (Finset.univ : Finset (Fin n)).fold f z (fun k => t k.val) := by
  induction n with
  | zero => rfl
  | succ n ih =>
    rw [chain_succ, ih, Fin.univ_castSuccEmb, Finset.fold_cons, Finset.fold_map, Std.Commutative.comm (op := f)]
    rfl

end Cert.LibRunningFold
-- ==== Proof.Candidate.lean ====
/-
  One step of the scaled min-plus product, read at an entry.

  The product is `out (r, c) = min over i of (x (r, i) · f (0, c) + w (i, c))` for a block `x` of 256 rows and 256
  columns, a matrix `w` of 256 rows and 512 columns and one row `f` of 512 scales. Step `i` of the loop that
  computes it takes column `i` of `x` laid along every column of the result, multiplies it entry by entry with `f`
  laid along every row, and adds row `i` of `w` laid along every row. At the entry `(r, c)` that is the one number
  `term x w f r c i` below. The lemmas are stated for every `i`, so that one statement reads all 256 steps.
-/
import Idealize.ShloMosaic.PureOps.Ideal
import Idealize.ShloMosaic.Lib.ValueIdx
import Idealize.ShloMosaic.Lib.ValueLayout
import Idealize.ShloMosaic.Lib.Pipeline.Value

noncomputable section

namespace Cert.MinPlus

open Idealize.ShloMosaic Idealize.ShloMosaic.ValueIdx

/-- A block of the left factor: 256 rows, 256 columns. -/
abbrev SX : Shape := ⟨2, ![256, 256]⟩
/-- The right factor as the loop reads it (row `i` holds what step `i` adds): 256 rows, 512 columns. Also a block of the result. -/
abbrev SW : Shape := ⟨2, ![256, 512]⟩
/-- The scales, one row of 512. -/
abbrev SF : Shape := ⟨2, ![1, 512]⟩
/-- One column of a block of the left factor. -/
abbrev SC : Shape := ⟨2, ![256, 1]⟩

variable {α : Type}

/-- A column slice at offset `i` exists only for `i` below the number of columns. -/
theorem lt_of_column {i : ℕ} (hs : SX.Slices ![0, i] SC) : i < 256 := hs.2 (1 : Fin 2)

/-- A row slice at offset `i` exists only for `i` below the number of rows. -/
theorem lt_of_row {i : ℕ} (hs : SW.Slices ![i, 0] SF) : i < 256 := hs.2 (0 : Fin 2)

/-- Column `i` of `x` laid along every column of the result reads, at `(r, c)`, the entry `x (r, i)`. -/
theorem column_apply (i : ℕ) (hi : i < 256) (x : SX.Idx → α) (hs : SX.Slices ![0, i] SC) (hb : SC.Broadcasts SW)
    (r : Fin 256) (c : Fin 512) :
    broadcastTo SW (extractStridedSlice SC ![0, i] x hs) hb (ix2 r c) = x (ix2 r (⟨i, hi⟩ : Fin 256)) := by
  refine (broadcastTo_apply _ hb (ix2 r c) (ix2 r (0 : Fin 1)) fun ax => ?_).trans ?_
  · match ax with
    | ⟨0, _⟩ => rfl
    | ⟨1, _⟩ => rfl
  · exact extractStridedSlice_apply _ x hs _ _ fun ax => by
      match ax with
      | ⟨0, _⟩ => exact (Nat.zero_add _).symm
      | ⟨1, _⟩ => rfl

/-- Row `i` of `w` laid along every row of the result reads, at `(r, c)`, the entry `w (i, c)`. -/
theorem row_apply (i : ℕ) (hi : i < 256) (w : SW.Idx → α) (hs : SW.Slices ![i, 0] SF) (hb : SF.Broadcasts SW)
    (r : Fin 256) (c : Fin 512) :
    broadcastTo SW (extractStridedSlice SF ![i, 0] w hs) hb (ix2 r c) = w (ix2 (⟨i, hi⟩ : Fin 256) c) := by
  refine (broadcastTo_1b_ab_apply _ hb r c).trans ?_
  exact extractStridedSlice_apply _ w hs _ _ fun ax => by
    match ax with
    | ⟨0, _⟩ => rfl
    | ⟨1, _⟩ => exact (Nat.zero_add _).symm

/-- The term step `i` contributes to the entry `(r, c)`: `x (r, i) · f (0, c) + w (i, c)` (for `i` past the last
    step, which no step reads, `0`). -/
def term (x : FVec Ideal SX .f32) (w : FVec Ideal SW .f32) (f : FVec Ideal SF .f32) (r : Fin 256) (c : Fin 512) (i : ℕ) : EReal :=
  if h : i < 256 then x (ix2 r ⟨i, h⟩) * f (ix2 (0 : Fin 1) c) + w (ix2 ⟨i, h⟩ c) else 0

/-- For a step below the extent the term is the product plus the row entry. -/
theorem term_of_lt (x : FVec Ideal SX .f32) (w : FVec Ideal SW .f32) (f : FVec Ideal SF .f32) (r : Fin 256) (c : Fin 512)
    (i : ℕ) (h : i < 256) : term x w f r c i = x (ix2 r ⟨i, h⟩) * f (ix2 (0 : Fin 1) c) + w (ix2 ⟨i, h⟩ c) := by
  unfold term; rw [dif_pos h]

/-- The product half of step `i`, at `(r, c)`: column `i` of `x` times the scales. -/
theorem product_apply (i : ℕ) (x : FVec Ideal SX .f32) (f : FVec Ideal SF .f32) (hs : SX.Slices ![0, i] SC)
    (hb : SC.Broadcasts SW) (hb' : SF.Broadcasts SW) (r : Fin 256) (c : Fin 512) :
    mulf (broadcastTo SW (extractStridedSlice SC ![0, i] x hs) hb) (broadcastTo SW f hb') (ix2 r c)
      = x (ix2 r ⟨i, lt_of_column hs⟩) * f (ix2 (0 : Fin 1) c) := by
  rw [mulf_apply, column_apply i (lt_of_column hs), broadcastTo_1b_ab_apply]

/-- Step `i` whole, at `(r, c)`: the product half plus row `i` of `w` is `term x w f r c i`. -/
theorem candidate_apply (i : ℕ) (x : FVec Ideal SX .f32) (w : FVec Ideal SW .f32) (f : FVec Ideal SF .f32)
    (hs : SX.Slices ![0, i] SC) (hs' : SW.Slices ![i, 0] SF) (hb : SC.Broadcasts SW) (hb' : SF.Broadcasts SW)
    (r : Fin 256) (c : Fin 512) :
    addf (mulf (broadcastTo SW (extractStridedSlice SC ![0, i] x hs) hb) (broadcastTo SW f hb'))
        (broadcastTo SW (extractStridedSlice SF ![i, 0] w hs') hb') (ix2 r c)
      = term x w f r c i := by
  rw [addf_apply, product_apply, row_apply i (lt_of_column hs), term_of_lt x w f r c i (lt_of_column hs)]

end Cert.MinPlus
-- ==== Proof.Spec.lean ====
/-
  The scaled min-plus product of whole arrays.

  For `X` of 2048 rows and 256 columns, `W` of 512 rows and 256 columns and a column `s` of 512 scales,
      `product X W s (b, o) = min over k < 256 of (X (b, k) · s (o, 0) + W (o, k))`,
  a matrix product in which the sum is a minimum and the product a sum, each row of `W` first scaled against `X`
  by its own factor. The minimum is written as the running fold of `min` from +∞ over `k = 0, …, 255` in order;
  by `chain_eq_fold` that is the fold over the index set, so the order is only a way of writing it.
-/
import Idealize.ShloMosaic.PureOps.Ideal
import Idealize.ShloMosaic.Lib.ValueIdx
import proofs.«106193_j70832600646265_2_alg».proof.Proof.LibRunningFold

noncomputable section

namespace Cert.MinPlus

open Idealize.ShloMosaic Idealize.ShloMosaic.ValueIdx Cert.LibRunningFold

/-- The value every minimum starts from: the word of +∞. -/
abbrev top : EReal := Ideal.ofBits .f32 0x7F800000#32

/-- Term `k` of the entry `(b, o)`: `X (b, k) · s (o, 0) + W (o, k)` (past the last column, which is never read, `0`). -/
def entryTerm (X : (⟨2, ![2048, 256]⟩ : Shape).Idx → EReal) (W : (⟨2, ![512, 256]⟩ : Shape).Idx → EReal)
    (s : (⟨2, ![512, 1]⟩ : Shape).Idx → EReal) (b : Fin 2048) (o : Fin 512) (k : ℕ) : EReal :=
  if h : k < 256 then X (ix2 b ⟨k, h⟩) * s (ix2 o (0 : Fin 1)) + W (ix2 o ⟨k, h⟩) else 0

/-- The product: at `(b, o)` the running minimum from +∞ of the 256 terms. -/
def product (X : (⟨2, ![2048, 256]⟩ : Shape).Idx → EReal) (W : (⟨2, ![512, 256]⟩ : Shape).Idx → EReal)
    (s : (⟨2, ![512, 1]⟩ : Shape).Idx → EReal) : (⟨2, ![2048, 512]⟩ : Shape).Idx → EReal :=
  fun j => chain min top (entryTerm X W s (j 0) (j 1)) 256

end Cert.MinPlus
-- ==== Proof.Body.lean ====
/-
  What one block of the result holds after the loop body: the running minimum of all 256 terms.

  The body starts every entry at +∞ and, for `i = 0, …, 255` in turn, replaces the entry `(r, c)` by the smaller of
  itself and `x (r, i) · f (0, c) + w (i, c)`. So the block it stores is, entry by entry, the running fold of `min`
  from +∞ over the terms `term x w f r c i` in their order. The 256 steps are written out one after the other in the
  body; each is read at the entry by the one lemma `candidate_apply`, and what is left is the running fold unrolled.
-/
import proofs.«106193_j70832600646265_2_alg».proof.Proof.Gen.KernelIdeal.Frame
import proofs.«106193_j70832600646265_2_alg».proof.Proof.LibRunningFold
import proofs.«106193_j70832600646265_2_alg».proof.Proof.Candidate
import proofs.«106193_j70832600646265_2_alg».proof.Proof.Spec

set_option maxRecDepth 16384

noncomputable section

namespace Cert.MinPlus

open Idealize.ShloMosaic Idealize.ShloMosaic.ValueIdx Cert.LibRunningFold
open Cert.KernelIdeal Cert.KernelIdeal.Gen

/-- The zero offsets of a whole-block access, in the form the block lemmas ask for. -/
theorem offsets_zero : (![0, 0] : Fin 2 → Nat) = fun _ => 0 := funext fun a => by fin_cases a <;> rfl

/-- The block the body stores, at the entry `(r, c)`: the running minimum from +∞ of the 256 terms. -/
theorem body_apply (x : Vec Ideal S256x256 .f32) (w : Vec Ideal S256x512 .f32) (f : Vec Ideal S1x512 .f32)
    (r : Fin 256) (c : Fin 512) :
    out0_3 (F := Ideal) x w f (ix2 r c) = chain min top (term x w f r c) 256 := by
  have ew : k0_pay1 (F := Ideal) w = w := shapeCast_self _ _
  have ef : k0_pay2 (F := Ideal) f = f := shapeCast_self _ _
  unfold out0_3
  rw [View.canon_unit_zero offsets_zero]
  simp only [View.ld_unit_zero (S := S256x256) offsets_zero, View.ld_unit_zero (S := S256x512) offsets_zero,
    View.ld_unit_zero (S := S1x512) offsets_zero]
  unfold k0_pay88 k0_pay87 k0_pay86 k0_pay85 k0_pay84 k0_pay83 k0_pay82 k0_pay81 k0_pay80 k0_pay79 k0_pay78 k0_pay77 k0_pay76 k0_pay75 k0_pay74 k0_pay73 k0_pay72 k0_pay71 k0_pay70 k0_pay69 k0_pay68 k0_pay67 k0_pay66 k0_pay65 k0_pay64 k0_pay63 k0_pay62 k0_pay61 k0_pay60 k0_pay59 k0_pay58 k0_pay57 k0_pay56 k0_pay55 k0_pay54 k0_pay53 k0_pay52 k0_pay51 k0_pay50 k0_pay49 k0_pay48 k0_pay47 k0_pay46 k0_pay45 k0_pay44 k0_pay43 k0_pay42 k0_pay41 k0_pay40 k0_pay39 k0_pay38 k0_pay37 k0_pay36 k0_pay35 k0_pay34 k0_pay33 k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay4 k0_pay3
  simp only [ew, ef, minimumf_apply, candidate_apply, broadcast_apply, chain_succ, chain_zero]
  rfl

end Cert.MinPlus
-- ==== Proof.Blocks.lean ====
/-
  From one block to the whole array: the kernel computes the scaled min-plus product.

  The 2048 rows of the result are cut into 8 blocks of 256 rows; grid point `t` reads rows `256 t, …, 256 t + 255` of
  `X`, the whole of `W` transposed (row `i` holds column `i` of `W`) and the scales as one row, and writes block
  `t` of the result. By `body_apply` the entry `(r, c)` of what it writes is the running minimum of
  `X (256 t + r, i) · s (c, 0) + W (c, i)` over `i`: the entry `(256 t + r, c)` of the product. The 8 blocks tile
  the result (row `b` lies in block `b / 256`), so after the run the result array is the product.
-/
import proofs.«106193_j70832600646265_2_alg».proof.Proof.Gen.KernelIdeal.Frame
import proofs.«106193_j70832600646265_2_alg».proof.Proof.Body
import proofs.«106193_j70832600646265_2_alg».proof.Proof.Spec
import Idealize.ShloMosaic.Lib.ValueLayout
import Idealize.ShloMosaic.Lib.StableHlo.Run
import Idealize.ShloMosaic.Lib.Pipeline.Value

noncomputable section

namespace Cert.MinPlus

open Idealize.ShloMosaic Idealize.ShloMosaic.TcCoe Idealize.SL.Sem Idealize.ShloMosaic.ValueIdx Cert.LibRunningFold
open Idealize.ShloMosaic.Pipeline (Dat)
open Cert.KernelIdeal Cert.KernelIdeal.Gen

variable (m : (ℓ : Loc nD τ sig) → Buf (Elt Ideal) ℓ) (ρ : Dev nD → PrngReg)

/-! ## The arrays the grid reads -/

/-- The second operand of the grid is `W` transposed. -/
theorem transposed_W (c : Dev nD) : (V m c main_v0 : S256x512.Idx → EReal)
    = transpose S256x512 [1, 0] (m ((c : Thread nD τ).loc main_arg1)) transposes_S512x256_S256x512_1_0 := by
  dsimp only [Gen.V, Gen.hostOps0]; after_results

/-- The third operand of the grid is the column of scales transposed to a row. -/
theorem transposed_s (c : Dev nD) : (V m c main_v1 : S1x512.Idx → EReal)
    = transpose S1x512 [1, 0] (m ((c : Thread nD τ).loc main_arg2)) transposes_S512x1_S1x512_1_0 := by
  dsimp only [Gen.V, Gen.hostOps0]; after_results

/-- Which block each operand is at, at each of the 8 grid points: the block of `X` and of the result move with the
    point, the other two stay at the one block there is. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `X`, at `(r, k)`, is `X (256 t + r, k)`. -/
theorem blockX_apply (c : Dev nD) (t : Fin cfg0.N) (r k : Fin 256) (b : Fin 2048) (hb : b.val = 256 * t.val + r.val) :
    (iblk m c 0 t : Vec Ideal S256x256 .f32) (ix2 r k)
      = (m ((c : Thread nD τ).loc main_arg0) : S2048x256.Idx → EReal) (ix2 b k) := by
  obtain ⟨e0, e1, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 256 + 1 * r.val = b.val; rw [e0, hb]; omega
  | ⟨1, _⟩ => show win0_0.index t (1 : Fin 2) * 256 + 1 * k.val = k.val; rw [e1]; omega

/-- The block of the transposed `W`, at `(i, q)`, is `W (q, i)`. -/
theorem blockW_apply (c : Dev nD) (t : Fin cfg0.N) (i : Fin 256) (q : Fin 512) :
    (iblk m c 1 t : Vec Ideal S256x512 .f32) (ix2 i q)
      = (m ((c : Thread nD τ).loc main_arg1) : S512x256.Idx → EReal) (ix2 q i) := by
  obtain ⟨-, -, e0, e1, -⟩ := index_facts t
  unfold iblk
  rw [View.read_apply]
  show V m c main_v0 _ = _
  rw [transposed_W m c]
  refine Eq.trans (congrArg _ ?_) (transpose_ix2_apply _ _ i q)
  funext a
  apply Fin.ext
  match a with
  | ⟨0, _⟩ => show win0_1.index t (0 : Fin 2) * 256 + 1 * i.val = i.val; rw [e0]; omega
  | ⟨1, _⟩ => show win0_1.index t (1 : Fin 2) * 512 + 1 * q.val = q.val; rw [e1]; omega

/-- The block of the row of scales, at `(0, q)`, is `s (q, 0)`. -/
theorem blockS_apply (c : Dev nD) (t : Fin cfg0.N) (q : Fin 512) :
    (iblk m c 2 t : Vec Ideal S1x512 .f32) (ix2 (0 : Fin 1) q)
      = (m ((c : Thread nD τ).loc main_arg2) : S512x1.Idx → EReal) (ix2 q (0 : Fin 1)) := by
  obtain ⟨-, -, -, -, e0, e1, -⟩ := index_facts t
  unfold iblk
  rw [View.read_apply]
  show V m c main_v1 _ = _
  rw [transposed_s m c]
  refine Eq.trans (congrArg _ ?_) (transpose_ix2_apply _ _ (0 : Fin 1) q)
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-! ## What each point writes, and the array after the run -/

/-- The product of the arrays the program was launched with. -/
abbrev result (c : Dev nD) : S2048x512.Idx → EReal :=
  product (m ((c : Thread nD τ).loc main_arg0)) (m ((c : Thread nD τ).loc main_arg1)) (m ((c : Thread nD τ).loc main_arg2))

/-- What point `t` writes back is block `t` of the product. -/
theorem flushed_eq (c : Dev nD) (t : Fin cfg0.N) :
    (dats m 0 c).flushed 3 t = ((cfg0.win 3).blk t).view.read (Elt Ideal) (result m c) := by
  obtain ⟨-, -, -, -, -, -, e0, e1⟩ := index_facts t
  have hN : t.val < 8 := Nat.lt_of_lt_of_eq t.isLt N_0
  show (cfg0.win 3).cut (grid0.coords t) ((dats m 0 c).after 3 t) = _
  rw [after0_3]
  funext y
  obtain ⟨r, q, rfl⟩ : ∃ (r : Fin 256) (q : Fin 512), y = ix2 r q := ⟨y 0, y 1, eq_ix2 y⟩
  have hr : r.val < 256 := r.isLt
  show out0_3 (F := Ideal) (iblk m c 0 t) (iblk m c 1 t) (iblk m c 2 t) (ix2 r q)
    = result m c (((cfg0.win 3).blk t).view.emb (ix2 r q))
  have hemb : ((cfg0.win 3).blk t).view.emb (ix2 r q) = ix2 (⟨256 * t.val + r.val, by omega⟩ : Fin 2048) q := by
    funext a
    apply Fin.ext
    match a with
    | ⟨0, _⟩ => show win0_3.index t (0 : Fin 2) * 256 + 1 * r.val = 256 * t.val + r.val; rw [e0]; omega
    | ⟨1, _⟩ => show win0_3.index t (1 : Fin 2) * 512 + 1 * q.val = q.val; rw [e1]; omega
  rw [hemb, body_apply]
  show _ = chain min top (entryTerm _ _ _ (⟨256 * t.val + r.val, _⟩ : Fin 2048) q) 256
  refine chain_congr min top _ _ 256 fun k hk => ?_
  rw [term_of_lt _ _ _ r q k hk]
  unfold entryTerm
  rw [dif_pos hk, blockX_apply m c t r ⟨k, hk⟩ ⟨256 * t.val + r.val, by omega⟩ rfl, blockW_apply, blockS_apply]

/-- A row index lies in point `t`'s block when it is one of the rows `256 t, …, 256 t + 255`. -/
theorem mem_block (t : Fin cfg0.N) (i : S2048x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v2).slice (win0_3.rect t)).set ↔ _
  rw [View.set_slice_whole, Rect.mem_set_unit]
  exact Iff.rfl

/-- Every entry of the result lies in the block of some point: row `b` in that of point `b / 256`. -/
theorem covered (i : S2048x512.Idx) :
    ∃ t : Fin cfg0.N, (cfg0.win 3).flush t = true ∧ i ∈ ((cfg0.win 3).blk t).view.set := by
  have h0 : (i 0).val < 2048 := (i 0).isLt
  have h1 : (i 1).val < 512 := (i 1).isLt
  obtain ⟨t, ht⟩ : ∃ t : Fin cfg0.N, t.val = (i 0).val / 256 :=
    ⟨⟨(i 0).val / 256, by rw [show cfg0.N = 8 from N_0]; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 512 ≤ (i 1).val ∧ (i 1).val < win0_3.index t (1 : Fin 2) * 512 + 512
    rw [e1]; omega

/-- After the run the result array is the product. -/
theorem final (c : Dev nD) : (dats m 0 c).arrAt 3 cfg0.N = result m c :=
  (dats m 0 c).arrAt_eq_of_cover 3 (result m c) (fun t _ => flushed_eq m c t) covered

/-- The run, read: after it the result array is what the 8 write-backs left, which is the product of the arrays
    the program was launched with; `X` was staged and never written back, and the other two arguments are no
    operand of the grid, so all three end unchanged. -/
theorem kernel_run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.MinPlus
-- ==== Proof.Reference.lean ====
/-
  The reference computes the scaled min-plus product.

  The reference lays `W`, `X` and the scales out over a common index set of 2048 × 512 × 256 entries, forms
  `W (o, k) + X (b, k) · s (o, 0)` at `(b, o, k)`, and reduces the last axis by `min` from +∞. Read at `(b, o)`
  the reduction is the fold of `min` over `k`, the summand is the product's term `k` with its two addends in the
  other order, and the fold over the index set is the running fold (`chain_eq_fold`).
-/
import proofs.«106193_j70832600646265_2_alg».proof.Proof.Gen.ReferenceIdeal.Read
import proofs.«106193_j70832600646265_2_alg».proof.Proof.Spec
import Idealize.ShloMosaic.PureOps.Ideal.Laws
import Idealize.ShloMosaic.PureOps.Reduce

noncomputable section

namespace Cert.MinPlus

open Idealize.ShloMosaic Idealize.ShloMosaic.ValueIdx Cert.LibRunningFold
open Cert.ReferenceIdeal Cert.ReferenceIdeal.Gen Cert.ReferenceIdeal.Read

/-- The index over `(b, o)` whose coordinate on the reduced axis is `k` is `(b, o, k)`. -/
theorem lift_entry (h : S2048x512x256.Reduces [2] S2048x512) (b : Fin 2048) (o : Fin 512) (k : Fin (S2048x512x256.size 2)) :
    h.lift (ix2 b o) k = ix3 b o (⟨k.val, k.isLt⟩ : Fin 256) := by
  funext c; apply Fin.ext
  fin_cases c <;> rfl

/-- What the reference reduces, at `(b, o, k)`: `W (o, k) + X (b, k) · s (o, 0)`. -/
theorem summand_apply (X : FVec Ideal S2048x256 .f32) (W : FVec Ideal S512x256 .f32) (s : FVec Ideal S512x1 .f32)
    (b : Fin 2048) (o : Fin 512) (k : Fin 256) :
    val_main_v7 (F := Ideal) X W s (ix3 b o k) = W (ix2 o k) + X (ix2 b k) * s (ix2 o (0 : Fin 1)) := by
  have eW : idx_main_v0 (idx_main_v6 (ix3 b o k)) = ix2 o k :=
    funext fun a => Fin.ext (by match a with | ⟨0, _⟩ => rfl | ⟨1, _⟩ => rfl)
  have eX : idx_main_v1 (idx_main_v3 (ix3 b o k)) = ix2 b k :=
    funext fun a => Fin.ext (by match a with | ⟨0, _⟩ => rfl | ⟨1, _⟩ => rfl)
  have es : idx_main_v2 (idx_main_v4 (ix3 b o k)) = ix2 o (0 : Fin 1) :=
    funext fun a => Fin.ext (by match a with | ⟨0, _⟩ => rfl | ⟨1, _⟩ => rfl)
  rw [val_main_v7_apply, val_main_v6_apply, val_main_v0_apply, val_main_v5_apply, val_main_v3_apply, val_main_v1_apply,
    val_main_v4_apply, val_main_v2_apply, eW, eX, es]
  rfl

/-- The reference's result is the product. -/
theorem reference_eq (X : FVec Ideal S2048x256 .f32) (W : FVec Ideal S512x256 .f32) (s : FVec Ideal S512x1 .f32) :
    val_main_v8 (F := Ideal) X W s = product X W s := by
  funext j
  obtain ⟨b, o, rfl⟩ : ∃ (b : Fin 2048) (o : Fin 512), j = ix2 b o := ⟨j 0, j 1, eq_ix2 j⟩
  have h : S2048x512x256.Reduces [2] S2048x512 := by decide
  unfold val_main_v8
  rw [Host.reduce_eq_fold_single FloatOps.minimumf _ _ reducesTo_S2048x512x256_S2048x512_d2 h h_S_]
  unfold product
  rw [chain_eq_fold]
  have hf : (val_main_v7 (F := Ideal) X W s ∘ h.lift (ix2 b o))
      = fun k : Fin 256 => entryTerm X W s b o k.val := funext fun k => by
    show val_main_v7 (F := Ideal) X W s (h.lift (ix2 b o) k) = _
    rw [lift_entry, summand_apply, add_comm]
    have hk : k.val < 256 := k.isLt
    unfold entryTerm
    rw [dif_pos hk]
  exact congrArg (fun g => Finset.fold min top g (Finset.univ : Finset (Fin 256))) hf

end Cert.MinPlus
-- ==== Proof.lean ====
/-
  The kernel and the reference both compute the scaled min-plus product
      out (b, o) = min over k of (X (b, k) · s (o, 0) + W (o, k))
  of their three arguments, read as extended reals (`Cert.MinPlus.product`, Proof/Spec.lean).

  The kernel cuts the rows of `X` into 8 blocks and, for each, keeps a running minimum, starting at +∞, of the 256
  terms in order, reading `W` transposed and the scales as a row (Proof/Candidate.lean reads one step at an entry,
  Proof/Body.lean all 256, Proof/Blocks.lean puts the 8 blocks together). The reference forms every term over an
  index set of 2048 × 512 × 256 entries and reduces the last axis by `min` from +∞ (Proof/Reference.lean). The two
  differ in the order of the two addends of a term, which addition does not see, and in taking the minimum step by step
  or all at once, which a commutative and associative operation does not see (Proof/LibRunningFold.lean). Neither
  needs the inputs to be finite, so the precondition is not opened.

  The three frame claims are the generated frames (the reference's is its generated run with the result dropped); the
  idealization rewrote nothing, so the preservation claim is `True`.
-/
import proofs.«106193_j70832600646265_2_alg».proof.Defs
import proofs.«106193_j70832600646265_2_alg».proof.Proof.Gen.Kernel
import proofs.«106193_j70832600646265_2_alg».proof.Proof.Gen.Kernel.Skeleton
import proofs.«106193_j70832600646265_2_alg».proof.Proof.Gen.Kernel.Launch
import proofs.«106193_j70832600646265_2_alg».proof.Proof.Gen.Kernel.Points
import proofs.«106193_j70832600646265_2_alg».proof.Proof.Gen.Kernel.Frame
import proofs.«106193_j70832600646265_2_alg».proof.Proof.Gen.KernelIdeal
import proofs.«106193_j70832600646265_2_alg».proof.Proof.Gen.KernelIdeal.Skeleton
import proofs.«106193_j70832600646265_2_alg».proof.Proof.Gen.KernelIdeal.Launch
import proofs.«106193_j70832600646265_2_alg».proof.Proof.Gen.KernelIdeal.Points
import proofs.«106193_j70832600646265_2_alg».proof.Proof.Gen.KernelIdeal.Frame
import proofs.«106193_j70832600646265_2_alg».proof.Proof.Gen.ReferenceIdeal
import proofs.«106193_j70832600646265_2_alg».proof.Proof.Gen.Pre_finite_inputs
import proofs.«106193_j70832600646265_2_alg».proof.Proof.Gen.ReferenceIdeal.Run
import proofs.«106193_j70832600646265_2_alg».proof.Proof.Gen.ReferenceIdeal.Read
import proofs.«106193_j70832600646265_2_alg».proof.Proof.Blocks
import proofs.«106193_j70832600646265_2_alg».proof.Proof.Reference
import Idealize.ShloMosaic.Adequacy
import Idealize.ShloMosaic.Init

noncomputable section

namespace Cert.Proof

open Idealize.ShloMosaic Idealize.ShloMosaic.TcCoe Idealize.SL.Sem

/-- The kernel's run is the generated frame. -/
theorem frame_kernel : Cert.frame_Kernel := fun m ρ _ => Cert.Kernel.Gen.frame m ρ

/-- So is the idealized kernel's. -/
theorem frame_kernelIdeal : Cert.frame_KernelIdeal := fun m ρ _ => Cert.KernelIdeal.Gen.frame m ρ

/-- The reference has no grid: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the product of those arguments in their result. -/
theorem algebraic : Cert.algebraic_KernelIdeal_ReferenceIdeal := by
  intro m ρ m' ρ' _ hagree
  refine ⟨fun c => Cert.MinPlus.result m c, Cert.MinPlus.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.MinPlus.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
